-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S256x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128 .f32) (main_arg8 : FVec F S128 .f32) (main_arg9 : FVec F S256x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S50000x128 .f32) (main_arg2 : IVec S2x800000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S3200x128 : Shape := ⟨2, ![3200, 128]⟩
abbrev S1x128 : Shape := ⟨2, ![1, 128]⟩
abbrev S3200 : Shape := ⟨1, ![3200]⟩
abbrev S3200x1 : Shape := ⟨2, ![3200, 1]⟩
abbrev S50000 : Shape := ⟨1, ![50000]⟩
abbrev S50000x1 : Shape := ⟨2, ![50000, 1]⟩
abbrev S5000x128 : Shape := ⟨2, ![5000, 128]⟩

abbrev nBuf : Space → Nat
  | .hbm => 54
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S50000, .f32⟩
  | .hbm, ⟨42, _⟩ => ⟨S800000x1, .i32⟩
  | .hbm, ⟨43, _⟩ => ⟨S50000, .f32⟩
  | .hbm, ⟨44, _⟩ => ⟨S_, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S128x128, .f32⟩
  | .hbm, ⟨52, _⟩ => ⟨S128x128, .f32⟩
  | .hbm, ⟨53, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S3200x128, .f32⟩
  | .local _ .vmem, ⟨11, _⟩ => ⟨S3200x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S800000x128.size a
  hwx0_8 : ∀ i : grid0.Coords, EltTy.bits .f32 = 32 ∨ (Rect.block (s := S800000x128) S3200x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S3200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000, .f32⟩
  | .hbm, ⟨47, _⟩ => ⟨S800000x1, .f32⟩
  | .hbm, ⟨48, _⟩ => ⟨S_, .f32⟩
  | .hbm, ⟨49, _⟩ => ⟨S800000x1, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S800000, .f32⟩
  | .hbm, ⟨56, _⟩ => ⟨S800000x1, .f32⟩
  | .hbm, ⟨57, _⟩ => ⟨S_, .f32⟩
  | .hbm, ⟨58, _⟩ => ⟨S800000x1, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S800000x1, .f32⟩
  | .hbm, ⟨64, _⟩ => ⟨S800000x1, .f32⟩
  | .hbm, ⟨65, _⟩ => ⟨S800000x1, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S1x128, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S_, .f32⟩
  | .hbm, ⟨79, _⟩ => ⟨S800000, .f32⟩
  | .hbm, ⟨80, _⟩ => ⟨S_, .f32⟩
  | .hbm, ⟨81, _⟩ => ⟨S50000, .f32⟩
  | .hbm, ⟨82, _⟩ => ⟨S800000x1, .i32⟩
  | .hbm, ⟨83, _⟩ => ⟨S50000, .f32⟩
  | .hbm, ⟨84, _⟩ => ⟨S_, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S50000x256, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The kernel program's run with its result named.

  @main is six segments: the host operations that slice the edge list and gather the two feature arrays, the first
  region (the per-edge perceptron and normalisation), the host operations that scatter-add the residuals per
  destination and divide by the clipped counts, and the second region (the per-node update). After the run the
  result buffer holds what the last segment boundary's contents say it holds: the second region's output array as
  its write-backs leave it. The statement keeps the arguments unchanged beside it.
-/
import proofs.«166582_j1099511628110_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents of it and the argument arrays as launched. -/
theorem run_out : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

/-- The last boundary's contents of the result buffer are the second region's output array after its write-backs. -/
theorem out_eq (c : Dev nD) : W6 m ρ c (Proc.devRef .tc main_v32) = (dat1 (V5 m ρ) c).arrAt 5 cfg1.N :=
  W6_arr m ρ c 5

end Cert.KernelIdeal.Hand

end
-- ==== Proof.Spec.lean ====
/-
  The mathematics both programs compute, row by row, on the extended reals.

  An edge's row: from the gathered destination features `h` a two-layer perceptron predicts the source features,
  `pred = max (h·W1 + b1) 0 · W2 + b2`; the difference `d = x - pred` is normalised over its 128 entries
  (mean `μ = (Σ d)/128`, centred `c = d - μ`, variance `(Σ c²)/128`) and scaled: `c · rsqrt(var + ε) · γ + β`.
  A node's row: `x_dst · W_top + aggr · W_bot + b`, the product of the concatenated row `[x_dst, aggr]` with the
  256-row weight matrix split at row 128.
-/
import Idealize.ShloMosaic.PureOps.Ideal
import Idealize.ShloMosaic.PureOps.Ideal.Laws
import Idealize.ShloMosaic.Lib.ValueIdx

noncomputable section

open scoped BigOperators

namespace Cert.Prmp

open Idealize.ShloMosaic Idealize.ShloMosaic.ValueIdx

/-- The row width 128 and the normalisation's ε, as the words both programs write. -/
def width : EReal := Ideal.ofBits .f32 0x43000000#32
def eps : EReal := Ideal.ofBits .f32 0x3727C5AC#32

/-- The hidden layer of a row: `max (h·W1 + b1) 0`. -/
def hidden (h : Fin 128 → EReal) (W1 : Fin 128 → Fin 128 → EReal) (b1 : Fin 128 → EReal) : Fin 128 → EReal :=
  fun k => max ((∑ j : Fin 128, h j * W1 j k) + b1 k) 0

/-- The predicted row: `hidden·W2 + b2`. -/
def predicted (h : Fin 128 → EReal) (W1 : Fin 128 → Fin 128 → EReal) (b1 : Fin 128 → EReal)
    (W2 : Fin 128 → Fin 128 → EReal) (b2 : Fin 128 → EReal) : Fin 128 → EReal :=
  fun k => (∑ j : Fin 128, hidden h W1 b1 j * W2 j k) + b2 k

/-- A row minus its mean. -/
def centred (d : Fin 128 → EReal) : Fin 128 → EReal :=
  fun k => d k - Ideal.div (∑ j : Fin 128, d j) width

/-- The normalised residual of a row. -/
def lnRow (x h : Fin 128 → EReal) (W1 : Fin 128 → Fin 128 → EReal) (b1 : Fin 128 → EReal)
    (W2 : Fin 128 → Fin 128 → EReal) (b2 g be : Fin 128 → EReal) : Fin 128 → EReal :=
  fun q => centred (fun k => x k - predicted h W1 b1 W2 b2 k) q
      * Ideal.rsqrt (Ideal.div (∑ k : Fin 128, centred (fun k => x k - predicted h W1 b1 W2 b2 k) k
          * centred (fun k => x k - predicted h W1 b1 W2 b2 k) k) width + eps)
      * g q + be q

/-- The update of a node's row from its own features and its aggregated residual. -/
def updRow (xd ag : Fin 128 → EReal) (Wt Wb : Fin 128 → Fin 128 → EReal) (bu : Fin 128 → EReal) : Fin 128 → EReal :=
  fun q => (∑ k : Fin 128, xd k * Wt k q) + (∑ k : Fin 128, ag k * Wb k q) + bu q

/-- The residual of every edge: each row of the two gathered arrays through `lnRow`. -/
def residArr (xj h : (⟨2, ![800000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g be : (⟨1, ![128]⟩ : Shape).Idx → EReal) : (⟨2, ![800000, 128]⟩ : Shape).Idx → EReal :=
  fun i => lnRow (fun k => xj (ix2 (i 0) k)) (fun k => h (ix2 (i 0) k)) (fun j k => W1 (ix2 j k)) (fun k => b1 (ix1 k))
    (fun j k => W2 (ix2 j k)) (fun k => b2 (ix1 k)) (fun k => g (ix1 k)) (fun k => be (ix1 k)) (i 1)

/-- The upper and lower 128 rows of the 256-row weight matrix. -/
def topHalf (W : (⟨2, ![256, 128]⟩ : Shape).Idx → EReal) : Fin 128 → Fin 128 → EReal :=
  fun j q => W (ix2 (⟨j.val, by omega⟩ : Fin 256) q)
def botHalf (W : (⟨2, ![256, 128]⟩ : Shape).Idx → EReal) : Fin 128 → Fin 128 → EReal :=
  fun j q => W (ix2 (⟨128 + j.val, by omega⟩ : Fin 256) q)

/-- The update of every node. -/
def updArr (xd ag : (⟨2, ![50000, 128]⟩ : Shape).Idx → EReal) (Wt Wb : Fin 128 → Fin 128 → EReal)
    (bu : (⟨1, ![128]⟩ : Shape).Idx → EReal) : (⟨2, ![50000, 128]⟩ : Shape).Idx → EReal :=
  fun i => updRow (fun k => xd (ix2 (i 0) k)) (fun k => ag (ix2 (i 0) k)) Wt Wb (fun k => bu (ix1 k)) (i 1)

/-- A sum over 256 indices is the sum over the first 128 plus the sum over the last 128 (addition of extended reals
    is commutative and associative, so no finiteness is asked). -/
theorem sum_256_split (f : Fin 256 → EReal) :
    ∑ k : Fin 256, f k = (∑ j : Fin 128, f ⟨j.val, by omega⟩) + ∑ j : Fin 128, f ⟨128 + j.val, by omega⟩ := by
  have h := Fin.sum_univ_add (a := 128) (b := 128) (fun k : Fin (128 + 128) => f ⟨k.val, by omega⟩)
  refine Eq.trans ?_ (h.trans ?_)
  · rfl
  · rfl

end Cert.Prmp

end
-- ==== Proof.LibColumn.lean ====
/-
  A column spread along its rows, read at an entry.
-/
import Idealize.ShloMosaic.Lib.Pipeline.Value
import Idealize.ShloMosaic.Lib.ValueIdx

noncomputable section

namespace Cert.GraphConv

open Idealize.ShloMosaic Idealize.ShloMosaic.ValueIdx

/-- An `[a, 1]` array broadcast to `[a, b]` (a keepdims column spread along each row) reads, at `(p, c)`, the
    column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.KernelRow.lean ====
/-
  The two kernel bodies, read one entry at a time on the extended reals.

  Each body works on a block of whole rows. Its arithmetic is a composition of three kinds of steps, and each is
  read at an entry `(p, q)` of the block from the entries of row `p` of its operands only:
  * a linear layer `l·w + b` — the matrix unit's product into a zero accumulator is the plain sum
    `Σ_k l(p,k)·w(k,q)`, the bias a row broadcast down the block;
  * the rectifier `max · 0`;
  * the normalisation of a row — the lane sums are sums over the row's 128 entries, the column of means (and of
    reciprocal standard deviations) is spread back along each row.
  So the first body's block is `lnRow` of the block's rows and the second's `updRow` of them (Spec.lean).
-/
import proofs.«166582_j1099511628110_1_alg».proof.Proof.Gen.KernelIdeal.Skeleton
import proofs.«166582_j1099511628110_1_alg».proof.Proof.Spec
import proofs.«166582_j1099511628110_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.Prmp
open Idealize.ShloMosaic Idealize.ShloMosaic.ValueIdx

/-! ## The matrix unit's product at an entry -/

abbrev D32 := dot_S3200x128_S128x128_S3200x128_1_0_0_1_n_n
abbrev D50 := dot_S5000x128_S128x128_S5000x128_1_0_0_1_n_n

theorem lhs32_0 (i : S3200x128.Idx) (q : D32.contr.Idx) : (D32.lhsIdx i q 0).val = (i 0).val := by
  unfold DotDims.lhsIdx
  rw [dif_neg (show ¬(0 : Fin S3200x128.rank) ∈ D32.lhsBatch by decide), dif_pos (show (0 : Fin S3200x128.rank) ∈ D32.lhsNonContracting by decide)]
  rfl
theorem lhs32_1 (i : S3200x128.Idx) (q : D32.contr.Idx) : (D32.lhsIdx i q 1).val = (q ⟨0, by decide⟩).val :=
  D32.lhsIdx_val_of_single rfl i q
theorem rhs32_0 (i : S3200x128.Idx) (q : D32.contr.Idx) : (D32.rhsIdx i q 0).val = (q ⟨0, by decide⟩).val :=
  D32.rhsIdx_val_of_single rfl i q
theorem rhs32_1 (i : S3200x128.Idx) (q : D32.contr.Idx) : (D32.rhsIdx i q 1).val = (i 1).val := by
  unfold DotDims.rhsIdx
  rw [dif_neg (show ¬(1 : Fin S128x128.rank) ∈ D32.rhsBatch by decide), dif_pos (show (1 : Fin S128x128.rank) ∈ D32.rhsNonContracting by decide)]
  rfl

/-- A [3200,128] block times a [128,128] matrix into the zero accumulator, at `(p, q)`: row `p` of the block against
    column `q` of the matrix. -/
theorem matmul32_apply (l : FVec Ideal S3200x128 .bf16) (r : FVec Ideal S128x128 .bf16) (p : Fin 3200) (q : Fin 128) :
    matmul D32 none l r (constant S3200x128 .f32 0x00000000#32) (ix2 p q) = ∑ k : Fin 128, l (ix2 p k) * r (ix2 k q) := by
  simp only [matmul]
  rw [Ideal.matmul_constant_zero_apply, ← Equiv.sum_comp (contrEquiv1 D32 128 rfl rfl).symm]
  refine Finset.sum_congr rfl fun k _ => ?_
  have hk := contrEquiv1_symm_val D32 128 rfl rfl k
  have el : D32.lhsIdx (ix2 p q) ((contrEquiv1 D32 128 rfl rfl).symm k) = ix2 p k := funext fun a => Fin.ext (by
    match a with
    | ⟨0, _⟩ => exact lhs32_0 _ _
    | ⟨1, _⟩ => exact (lhs32_1 _ _).trans hk)
  have er : D32.rhsIdx (ix2 p q) ((contrEquiv1 D32 128 rfl rfl).symm k) = ix2 k q := funext fun a => Fin.ext (by
    match a with
    | ⟨0, _⟩ => exact (rhs32_0 _ _).trans hk
    | ⟨1, _⟩ => exact rhs32_1 _ _)
  rw [el, er]

theorem lhs50_0 (i : S5000x128.Idx) (q : D50.contr.Idx) : (D50.lhsIdx i q 0).val = (i 0).val := by
  unfold DotDims.lhsIdx
  rw [dif_neg (show ¬(0 : Fin S5000x128.rank) ∈ D50.lhsBatch by decide), dif_pos (show (0 : Fin S5000x128.rank) ∈ D50.lhsNonContracting by decide)]
  rfl
theorem lhs50_1 (i : S5000x128.Idx) (q : D50.contr.Idx) : (D50.lhsIdx i q 1).val = (q ⟨0, by decide⟩).val :=
  D50.lhsIdx_val_of_single rfl i q
theorem rhs50_0 (i : S5000x128.Idx) (q : D50.contr.Idx) : (D50.rhsIdx i q 0).val = (q ⟨0, by decide⟩).val :=
  D50.rhsIdx_val_of_single rfl i q
theorem rhs50_1 (i : S5000x128.Idx) (q : D50.contr.Idx) : (D50.rhsIdx i q 1).val = (i 1).val := by
  unfold DotDims.rhsIdx
  rw [dif_neg (show ¬(1 : Fin S128x128.rank) ∈ D50.rhsBatch by decide), dif_pos (show (1 : Fin S128x128.rank) ∈ D50.rhsNonContracting by decide)]
  rfl

/-- The same for a [5000,128] block. -/
theorem matmul50_apply (l : FVec Ideal S5000x128 .bf16) (r : FVec Ideal S128x128 .bf16) (p : Fin 5000) (q : Fin 128) :
    matmul D50 none l r (constant S5000x128 .f32 0x00000000#32) (ix2 p q) = ∑ k : Fin 128, l (ix2 p k) * r (ix2 k q) := by
  simp only [matmul]
  rw [Ideal.matmul_constant_zero_apply, ← Equiv.sum_comp (contrEquiv1 D50 128 rfl rfl).symm]
  refine Finset.sum_congr rfl fun k _ => ?_
  have hk := contrEquiv1_symm_val D50 128 rfl rfl k
  have el : D50.lhsIdx (ix2 p q) ((contrEquiv1 D50 128 rfl rfl).symm k) = ix2 p k := funext fun a => Fin.ext (by
    match a with
    | ⟨0, _⟩ => exact lhs50_0 _ _
    | ⟨1, _⟩ => exact (lhs50_1 _ _).trans hk)
  have er : D50.rhsIdx (ix2 p q) ((contrEquiv1 D50 128 rfl rfl).symm k) = ix2 k q := funext fun a => Fin.ext (by
    match a with
    | ⟨0, _⟩ => exact (rhs50_0 _ _).trans hk
    | ⟨1, _⟩ => exact rhs50_1 _ _)
  rw [el, er]

/-! ## Rows and columns spread over a block -/

/-- A 128-vector laid as one row and spread down a block reads, at `(p, q)`, its entry `q`. -/
theorem rowSpread_apply {R : ℕ} (b : (⟨1, ![128]⟩ : Shape).Idx → EReal) (h1 : (⟨1, ![128]⟩ : Shape).ShapeCasts ⟨2, ![1, 128]⟩)
    (h2 : (⟨2, ![1, 128]⟩ : Shape).Broadcasts ⟨2, ![R, 128]⟩) (p : Fin R) (q : Fin 128) :
    broadcastTo ⟨2, ![R, 128]⟩ (shapeCast ⟨2, ![1, 128]⟩ b h1) h2 (ix2 p q) = b (ix1 q) :=
  (broadcastTo_1b_ab_apply _ h2 p q).trans (shapeCast_a_1a_apply b h1 0 q)

/-- A vector of row values laid as a column reads, at `(p, 0)`, the value of row `p`. -/
theorem column_apply {R : ℕ} (v : (⟨1, ![R]⟩ : Shape).Idx → EReal) (h : (⟨1, ![R]⟩ : Shape).ShapeCasts ⟨2, ![R, 1]⟩)
    (p : Fin R) (u : Fin 1) : shapeCast ⟨2, ![R, 1]⟩ v h (ix2 p u) = v (ix1 p) :=
  shapeCast_apply v h _ _ (by
    have hu : u.val = 0 := by omega
    rw [Shape.rowMajor_val_two, Shape.rowMajor_val_one]
    show p.val = p.val * 1 + u.val
    omega)

/-- A lane sum of a [3200,128] block, at row `p`: the sum of the row's 128 entries. -/
theorem rowSum_apply (src : FVec Ideal S3200x128 .f32) (h : S3200x128.Reduces [1] S3200) (hφ : FTy.f32 = FTy.f32 ∨ FTy.f32 = FTy.bf16)
    (hacc : @Eq (BitVec FTy.f32.bits) 0x00000000#32 0x00000000#32) (p : Fin 3200) :
    multiReduction .add [1] S3200 src 0x00000000#32 h hφ hacc (ix1 p) = ∑ k : Fin 128, src (ix2 p k) := by
  refine (Ideal.multiReduction_add_single src 0x00000000#32 h hφ hacc (ix1 p)).trans ?_
  refine Finset.sum_congr rfl fun k _ => ?_
  exact congrArg src (funext fun a => Fin.ext (by match a with | ⟨0, _⟩ => rfl | ⟨1, _⟩ => rfl))

/-! ## The first body: a block of edges -/

theorem rsqrt_apply {s : Shape} (v : FVec Ideal s .f32) (i : s.Idx) : rsqrt v i = Ideal.rsqrt (v i) := rfl
theorem scalar_ofBits (b : BitVec 32) : Scalar.ofBits (F := Ideal) .f32 b = Ideal.ofBits .f32 b := rfl

section Pieces
variable {F : FTy → Type} [FloatOps F]

/-- A linear layer on a block: the block times the weights, plus the bias spread down the rows. -/
def lin32 (l : FVec F S3200x128 .bf16) (w : FVec F S128x128 .bf16) (b : Vec F S128 .f32) : FVec F S3200x128 .f32 :=
  addf (matmul D32 none l w (constant S3200x128 .f32 0x00000000#32))
    (broadcastTo S3200x128 (shapeCast S1x128 b Gen.shapeCasts_S128_S1x128) Gen.broadcasts_S1x128_S3200x128)

/-- The block of differences: the source features minus the perceptron's prediction from the destination features. -/
def diff32 (x0 x1 : Vec F S3200x128 .f32) (w1 w2 : Vec F S128x128 .f32) (b1 b2 : Vec F S128 .f32) : FVec F S3200x128 .f32 :=
  subf (shapeCast S3200x128 x0 Gen.shapeCasts_S3200x128_S3200x128)
    (lin32 (truncf .bf16 (maximumf (lin32 (truncf .bf16 (shapeCast S3200x128 x1 Gen.shapeCasts_S3200x128_S3200x128) Gen.bitsLt_bf16_f32)
        (truncf .bf16 w1 Gen.bitsLt_bf16_f32) b1) (broadcast S3200x128 (Scalar.ofBits .f32 0x00000000#32))) Gen.bitsLt_bf16_f32)
      (truncf .bf16 w2 Gen.bitsLt_bf16_f32) b2)

/-- The column of row means of a block: each row's lane sum over 128. -/
def rowMean32 (d : FVec F S3200x128 .f32) : FVec F S3200x1 .f32 :=
  divf (shapeCast S3200x1 (multiReduction .add [1] S3200 d 0x00000000#32 Gen.reduces_S3200x128_S3200 (.inl rfl) rfl) Gen.shapeCasts_S3200_S3200x1)
    (broadcast S3200x1 (Scalar.ofBits .f32 0x43000000#32))

/-- A block with each row centred. -/
def centre32 (d : FVec F S3200x128 .f32) : FVec F S3200x128 .f32 :=
  subf d (broadcastTo S3200x128 (rowMean32 d) Gen.broadcasts_S3200x1_S3200x128)

/-- A block with each row centred and divided by its standard deviation. -/
def norm32 (d : FVec F S3200x128 .f32) : FVec F S3200x128 .f32 :=
  mulf (centre32 d) (broadcastTo S3200x128
    (rsqrt (addf (rowMean32 (mulf (centre32 d) (centre32 d))) (broadcast S3200x1 (Scalar.ofBits .f32 0x3727C5AC#32))))
    Gen.broadcasts_S3200x1_S3200x128)

/-- The body's first payload is these pieces composed. -/
theorem pay2_eq (x0 x1 : Vec F S3200x128 .f32) (w1 w2 : Vec F S128x128 .f32) (b1 b2 : Vec F S128 .f32) :
    k0_pay2 x0 x1 w1 w2 b1 b2 = norm32 (diff32 x0 x1 w1 w2 b1 b2) := rfl

end Pieces

/-- A linear layer at `(p, q)`. -/
theorem lin32_apply (l : FVec Ideal S3200x128 .bf16) (w : FVec Ideal S128x128 .bf16) (b : Vec Ideal S128 .f32) (p : Fin 3200) (q : Fin 128) :
    lin32 l w b (ix2 p q) = (∑ k : Fin 128, l (ix2 p k) * w (ix2 k q)) + b (ix1 q) := by
  unfold lin32
  rw [addf_apply, matmul32_apply, rowSpread_apply]

/-- The difference at `(p, q)`. -/
theorem diff32_apply (x0 x1 : Vec Ideal S3200x128 .f32) (w1 w2 : Vec Ideal S128x128 .f32) (b1 b2 : Vec Ideal S128 .f32) (p : Fin 3200) (q : Fin 128) :
    diff32 x0 x1 w1 w2 b1 b2 (ix2 p q)
      = x0 (ix2 p q) - predicted (fun k => x1 (ix2 p k)) (fun j k => w1 (ix2 j k)) (fun k => b1 (ix1 k))
          (fun j k => w2 (ix2 j k)) (fun k => b2 (ix1 k)) q := by
  unfold diff32
  simp only [subf_apply, lin32_apply, truncf_apply, maximumf_apply, broadcast_apply, shapeCast_self, scalar_ofBits, Ideal.ofBits_zero_f32]
  rfl

/-- The mean of row `p`. -/
theorem rowMean32_apply (d : FVec Ideal S3200x128 .f32) (p : Fin 3200) (u : Fin 1) :
    rowMean32 d (ix2 p u) = Ideal.div (∑ k : Fin 128, d (ix2 p k)) width := by
  unfold rowMean32
  rw [divf_apply, column_apply, rowSum_apply, broadcast_apply, scalar_ofBits]
  rfl

/-- A centred block at `(p, q)`. -/
theorem centre32_apply (d : FVec Ideal S3200x128 .f32) (p : Fin 3200) (q : Fin 128) :
    centre32 d (ix2 p q) = centred (fun k => d (ix2 p k)) q := by
  unfold centre32
  rw [subf_apply, Cert.GraphConv.broadcastTo_a1_ab_apply, rowMean32_apply]
  rfl

/-- A normalised block at `(p, q)`. -/
theorem norm32_apply (d : FVec Ideal S3200x128 .f32) (p : Fin 3200) (q : Fin 128) :
    norm32 d (ix2 p q) = centred (fun k => d (ix2 p k)) q
      * Ideal.rsqrt (Ideal.div (∑ k : Fin 128, centred (fun k => d (ix2 p k)) k * centred (fun k => d (ix2 p k)) k) width + eps) := by
  unfold norm32
  rw [mulf_apply, Cert.GraphConv.broadcastTo_a1_ab_apply, rsqrt_apply, addf_apply, rowMean32_apply, broadcast_apply, scalar_ofBits, centre32_apply]
  simp only [mulf_apply, centre32_apply]
  rfl

/-- The first body's stored block at `(p, q)`: `lnRow` of row `p` of the two loaded blocks. -/
theorem pay1_apply (x0 x1 : Vec Ideal S3200x128 .f32) (w1 : Vec Ideal S128x128 .f32) (b1 : Vec Ideal S128 .f32)
    (w2 : Vec Ideal S128x128 .f32) (b2 g be : Vec Ideal S128 .f32) (p : Fin 3200) (q : Fin 128) :
    k0_pay1 (k0_pay2 x0 x1 w1 w2 b1 b2) g be (ix2 p q)
      = lnRow (fun k => x0 (ix2 p k)) (fun k => x1 (ix2 p k)) (fun j k => w1 (ix2 j k)) (fun k => b1 (ix1 k))
          (fun j k => w2 (ix2 j k)) (fun k => b2 (ix1 k)) (fun k => g (ix1 k)) (fun k => be (ix1 k)) q := by
  rw [pay2_eq]
  unfold k0_pay1
  simp only [addf_apply, mulf_apply, rowSpread_apply, norm32_apply, diff32_apply]
  rfl

/-! ## The second body: a block of nodes -/

/-- The second body's stored block at `(p, q)`: `updRow` of row `p` of its two loaded blocks. -/
theorem upd_pay_apply (x0 x1 : Vec Ideal S5000x128 .f32) (wt wb : Vec Ideal S128x128 .f32) (bu : Vec Ideal S128 .f32)
    (p : Fin 5000) (q : Fin 128) :
    k1_pay1 x0 x1 wt wb bu (ix2 p q)
      = updRow (fun k => x0 (ix2 p k)) (fun k => x1 (ix2 p k)) (fun j k => wt (ix2 j k)) (fun j k => wb (ix2 j k))
          (fun k => bu (ix1 k)) q := by
  unfold k1_pay1
  simp only [addf_apply, matmul50_apply, truncf_apply, shapeCast_self, rowSpread_apply]
  rfl

end Cert.KernelIdeal.Hand

end
-- ==== Proof.KernelArray0.lean ====
/-
  The first region's output array, whatever the buffers hold when the region is entered.

  The grid has 250 points; point `t` stages rows `3200·t … 3200·t + 3199` of the two gathered arrays and the whole
  of each weight, and writes back rows `3200·t …` of the output. What it writes is, entry by entry, `lnRow` of the
  staged rows (KernelRow.lean), that is block `t` of ONE function of the arrays, `residArr`; the 250 blocks tile the
  800000 rows (row `r` is in block `r / 3200`), so after the write-backs the output array is `residArr`.
-/
import proofs.«166582_j1099511628110_1_alg».proof.Proof.Gen.KernelIdeal.Frame
import proofs.«166582_j1099511628110_1_alg».proof.Proof.KernelRow
import Idealize.ShloMosaic.Lib.Pipeline.Value

set_option maxRecDepth 16384

noncomputable section

open scoped BigOperators

namespace Cert.KernelIdeal.Hand

open Cert.KernelIdeal Cert.KernelIdeal.Gen Cert.Prmp
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2a : (![0, 0] : Fin 2 → Nat) = fun _ => 0 := funext fun a => by fin_cases a <;> rfl
theorem hz1a : (![0] : Fin 1 → Nat) = fun _ => 0 := funext fun a => by fin_cases a <;> rfl

/-- The printed index maps over the grid: the row windows move with the point, the weights stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

/-- Row `p` of the source-feature block at point `t` is row `3200·t + p` of the gathered array. -/
theorem blk0_0 (c : Dev nD) (t : Fin cfg0.N) (p : Fin 3200) (k : Fin 128) (hb : 3200 * t.val + p.val < 800000) :
    (iblk0 V c 0 t : Vec Ideal S3200x128 .f32) (ix2 p k) = (V c main_v10 : S800000x128.Idx → EReal) (ix2 ⟨3200 * t.val + p.val, hb⟩ k) := by
  obtain ⟨e0, e1, -⟩ := idx0 t
  unfold iblk0
  rw [View.read_apply]
  refine congrArg (V c main_v10 : S800000x128.Idx → EReal) (funext fun a => Fin.ext ?_)
  match a with
  | ⟨0, _⟩ => show win0_0.index t (0 : Fin 2) * 3200 + 1 * p.val = 3200 * t.val + p.val; rw [e0]; omega
  | ⟨1, _⟩ => show win0_0.index t (1 : Fin 2) * 128 + 1 * k.val = k.val; rw [e1]; omega

/-- The same for the destination-feature block. -/
theorem blk0_1 (c : Dev nD) (t : Fin cfg0.N) (p : Fin 3200) (k : Fin 128) (hb : 3200 * t.val + p.val < 800000) :
    (iblk0 V c 1 t : Vec Ideal S3200x128 .f32) (ix2 p k) = (V c main_v17 : S800000x128.Idx → EReal) (ix2 ⟨3200 * t.val + p.val, hb⟩ k) := by
  obtain ⟨-, -, e0, e1, -⟩ := idx0 t
  unfold iblk0
  rw [View.read_apply]
  refine congrArg (V c main_v17 : S800000x128.Idx → EReal) (funext fun a => Fin.ext ?_)
  match a with
  | ⟨0, _⟩ => show win0_1.index t (0 : Fin 2) * 3200 + 1 * p.val = 3200 * t.val + p.val; rw [e0]; omega
  | ⟨1, _⟩ => show win0_1.index t (1 : Fin 2) * 128 + 1 * k.val = k.val; rw [e1]; omega

/-- The first weight block is the whole first weight matrix at every point … -/
theorem blk0_2 (c : Dev nD) (t : Fin cfg0.N) (j k : Fin 128) :
    (iblk0 V c 2 t : Vec Ideal S128x128 .f32) (ix2 j k) = (V c main_arg3 : S128x128.Idx → EReal) (ix2 j k) := by
  obtain ⟨-, -, -, -, e0, e1, -⟩ := idx0 t
  unfold iblk0
  rw [View.read_apply]
  refine congrArg (V c main_arg3 : S128x128.Idx → EReal) (funext fun a => Fin.ext ?_)
  match a with
  | ⟨0, _⟩ => show win0_2.index t (0 : Fin 2) * 128 + 1 * j.val = j.val; rw [e0]; omega
  | ⟨1, _⟩ => show win0_2.index t (1 : Fin 2) * 128 + 1 * k.val = k.val; rw [e1]; omega

/-- … and so are the first bias, … -/
theorem blk0_3 (c : Dev nD) (t : Fin cfg0.N) (k : Fin 128) :
    (iblk0 V c 3 t : Vec Ideal S128 .f32) (ix1 k) = (V c main_arg4 : S128.Idx → EReal) (ix1 k) := by
  obtain ⟨-, -, -, -, -, -, e0, -⟩ := idx0 t
  unfold iblk0
  rw [View.read_apply]
  refine congrArg (V c main_arg4 : S128.Idx → EReal) (funext fun a => Fin.ext ?_)
  match a with
  | ⟨0, _⟩ => show win0_3.index t (0 : Fin 1) * 128 + 1 * k.val = k.val; rw [e0]; omega

/-- … the second weight matrix, … -/
theorem blk0_4 (c : Dev nD) (t : Fin cfg0.N) (j k : Fin 128) :
    (iblk0 V c 4 t : Vec Ideal S128x128 .f32) (ix2 j k) = (V c main_arg5 : S128x128.Idx → EReal) (ix2 j k) := by
  obtain ⟨-, -, -, -, -, -, -, e0, e1, -⟩ := idx0 t
  unfold iblk0
  rw [View.read_apply]
  refine congrArg (V c main_arg5 : S128x128.Idx → EReal) (funext fun a => Fin.ext ?_)
  match a with
  | ⟨0, _⟩ => show win0_4.index t (0 : Fin 2) * 128 + 1 * j.val = j.val; rw [e0]; omega
  | ⟨1, _⟩ => show win0_4.index t (1 : Fin 2) * 128 + 1 * k.val = k.val; rw [e1]; omega

/-- … the second bias, … -/
theorem blk0_5 (c : Dev nD) (t : Fin cfg0.N) (k : Fin 128) :
    (iblk0 V c 5 t : Vec Ideal S128 .f32) (ix1 k) = (V c main_arg6 : S128.Idx → EReal) (ix1 k) := by
  obtain ⟨-, -, -, -, -, -, -, -, -, e0, -⟩ := idx0 t
  unfold iblk0
  rw [View.read_apply]
  refine congrArg (V c main_arg6 : S128.Idx → EReal) (funext fun a => Fin.ext ?_)
  match a with
  | ⟨0, _⟩ => show win0_5.index t (0 : Fin 1) * 128 + 1 * k.val = k.val; rw [e0]; omega

/-- … the scale … -/
theorem blk0_6 (c : Dev nD) (t : Fin cfg0.N) (k : Fin 128) :
    (iblk0 V c 6 t : Vec Ideal S128 .f32) (ix1 k) = (V c main_arg7 : S128.Idx → EReal) (ix1 k) := by
  obtain ⟨-, -, -, -, -, -, -, -, -, -, e0, -⟩ := idx0 t
  unfold iblk0
  rw [View.read_apply]
  refine congrArg (V c main_arg7 : S128.Idx → EReal) (funext fun a => Fin.ext ?_)
  match a with
  | ⟨0, _⟩ => show win0_6.index t (0 : Fin 1) * 128 + 1 * k.val = k.val; rw [e0]; omega

/-- … and the shift. -/
theorem blk0_7 (c : Dev nD) (t : Fin cfg0.N) (k : Fin 128) :
    (iblk0 V c 7 t : Vec Ideal S128 .f32) (ix1 k) = (V c main_arg8 : S128.Idx → EReal) (ix1 k) := by
  obtain ⟨-, -, -, -, -, -, -, -, -, -, -, e0, -⟩ := idx0 t
  unfold iblk0
  rw [View.read_apply]
  refine congrArg (V c main_arg8 : S128.Idx → EReal) (funext fun a => Fin.ext ?_)
  match a with
  | ⟨0, _⟩ => show win0_7.index t (0 : Fin 1) * 128 + 1 * k.val = k.val; rw [e0]; omega

/-- Entry `(p, q)` of the output block at point `t` sits at row `3200·t + p` of the output array. -/
theorem emb0_8 (t : Fin cfg0.N) (p : Fin 3200) (q : Fin 128) (hb : 3200 * t.val + p.val < 800000) :
    ((cfg0.win 8).blk t).view.emb (ix2 p q) = (ix2 ⟨3200 * t.val + p.val, hb⟩ q : S800000x128.Idx) := by
  obtain ⟨-, -, -, -, -, -, -, -, -, -, -, -, e0, e1⟩ := idx0 t
  refine funext fun a => Fin.ext ?_
  match a with
  | ⟨0, _⟩ => show win0_8.index t (0 : Fin 2) * 3200 + 1 * p.val = 3200 * t.val + p.val; rw [e0]; omega
  | ⟨1, _⟩ => show win0_8.index t (1 : Fin 2) * 128 + 1 * q.val = q.val; rw [e1]; omega

/-- What the region leaves in its output array, as one function of the arrays it finds. -/
abbrev resid0 (c : Dev nD) : S800000x128.Idx → EReal :=
  residArr (V c main_v10 : S800000x128.Idx → EReal) (V c main_v17 : S800000x128.Idx → EReal) (V c main_arg3 : S128x128.Idx → EReal)
    (V c main_arg4 : S128.Idx → EReal) (V c main_arg5 : S128x128.Idx → EReal) (V c main_arg6 : S128.Idx → EReal)
    (V c main_arg7 : S128.Idx → EReal) (V c main_arg8 : S128.Idx → EReal)

/-- What point `t` writes back is block `t` of that function. -/
theorem flushed0_eq (c : Dev nD) (t : Fin cfg0.N) :
    (dat0 V c).flushed 8 t = ((cfg0.win 8).blk t).view.read (Elt Ideal) (resid0 V c) := by
  show (cfg0.win 8).cut (grid0.coords t) ((dat0 V c).after 8 t) = _
  rw [after0_8]
  unfold out0_8
  rw [View.canon_unit_zero hz2a]
  simp only [View.ld_unit_zero (S := S3200x128) hz2a, View.ld_unit_zero (S := S128x128) hz2a, View.ld_unit_zero (S := S128) hz1a]
  funext j
  obtain ⟨p, q, rfl⟩ : ∃ (p : Fin 3200) (q : Fin 128), j = ix2 p q := ⟨j 0, j 1, eq_ix2 j⟩
  have hN : cfg0.N = 250 := N_0
  have hb : 3200 * t.val + p.val < 800000 := by have := t.isLt; have := p.isLt; omega
  rw [View.read_apply, emb0_8 t p q hb]
  show k0_pay1 (k0_pay2 (iblk0 V c 0 t) (iblk0 V c 1 t) (iblk0 V c 2 t) (iblk0 V c 4 t) (iblk0 V c 3 t) (iblk0 V c 5 t)) (iblk0 V c 6 t) (iblk0 V c 7 t) (ix2 p q) = _
  refine (pay1_apply (iblk0 V c 0 t) (iblk0 V c 1 t) (iblk0 V c 2 t) (iblk0 V c 3 t) (iblk0 V c 4 t) (iblk0 V c 5 t) (iblk0 V c 6 t) (iblk0 V c 7 t) p q).trans ?_
  simp only [blk0_0 V c t _ _ hb, blk0_1 V c t _ _ hb, blk0_2, blk0_3, blk0_4, blk0_5, blk0_6, blk0_7]
  rfl

/-- Every row of the output array is in some point's block. -/
theorem cover0 (i : S800000x128.Idx) : ∃ t : Fin cfg0.N, (cfg0.win 8).flush t = true ∧ i ∈ ((cfg0.win 8).blk t).view.set := by
  have hi0 : (i 0).val < 800000 := (i 0).isLt
  have hi1 : (i 1).val < 128 := (i 1).isLt
  have hN : cfg0.N = 250 := N_0
  have ht : (i 0).val / 3200 < cfg0.N := by rw [hN]; omega
  refine ⟨⟨(i 0).val / 3200, ht⟩, flush0_8 _, ?_⟩
  obtain ⟨-, -, -, -, -, -, -, -, -, -, -, -, e0, e1⟩ := idx0 ⟨(i 0).val / 3200, ht⟩
  show i ∈ ((View.whole main_v18).slice (win0_8.rect ⟨(i 0).val / 3200, ht⟩)).set
  rw [View.set_slice_whole, Rect.mem_set_unit]
  intro a
  match a with
  | ⟨0, _⟩ =>
    show win0_8.index ⟨(i 0).val / 3200, ht⟩ (0 : Fin 2) * 3200 ≤ (i 0).val ∧ (i 0).val < win0_8.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_8.index ⟨(i 0).val / 3200, ht⟩ (1 : Fin 2) * 128 ≤ (i 1).val ∧ (i 1).val < win0_8.index ⟨(i 0).val / 3200, ht⟩ (1 : Fin 2) * 128 + 128
    rw [e1]; omega

/-- After the write-backs the output array holds the residual of every edge. -/
theorem final0 (c : Dev nD) : (dat0 V c).arrAt 8 cfg0.N = resid0 V c :=
  (dat0 V c).arrAt_eq_of_cover 8 (resid0 V c) (fun t _ => flushed0_eq V c t) cover0

end Cert.KernelIdeal.Hand

end
-- ==== Proof.KernelArray1.lean ====
/-
  The second region's output array, whatever the buffers hold when the region is entered.

  The grid has 10 points; point `t` stages rows `5000·t … 5000·t + 4999` of the destination features and of the
  aggregated residual, and the whole of the two weight halves and of the bias, and writes back rows `5000·t …` of the
  output. What it writes is, entry by entry, `updRow` of the staged rows (KernelRow.lean): block `t` of `updArr`; the
  ten blocks tile the 50000 rows, so after the write-backs the output array is `updArr`.
-/
import proofs.«166582_j1099511628110_1_alg».proof.Proof.Gen.KernelIdeal.Frame
import proofs.«166582_j1099511628110_1_alg».proof.Proof.KernelRow
import Idealize.ShloMosaic.Lib.Pipeline.Value

set_option maxRecDepth 16384

noncomputable section

open scoped BigOperators

namespace Cert.KernelIdeal.Hand

open Cert.KernelIdeal Cert.KernelIdeal.Gen Cert.Prmp
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2b : (![0, 0] : Fin 2 → Nat) = fun _ => 0 := funext fun a => by fin_cases a <;> rfl
theorem hz1b : (![0] : Fin 1 → Nat) = fun _ => 0 := funext fun a => by fin_cases a <;> rfl

/-- The printed index maps over the grid: the row windows move with the point, the weights stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the destination-feature block at point `t` is row `5000·t + p` of the array. -/
theorem blk1_0 (c : Dev nD) (t : Fin cfg1.N) (p : Fin 5000) (k : Fin 128) (hb : 5000 * t.val + p.val < 50000) :
    (iblk1 V c 0 t : Vec Ideal S5000x128 .f32) (ix2 p k) = (V c main_arg1 : S50000x128.Idx → EReal) (ix2 ⟨5000 * t.val + p.val, hb⟩ k) := by
  obtain ⟨e0, e1, -⟩ := idx1 t
  unfold iblk1
  rw [View.read_apply]
  refine congrArg (V c main_arg1 : S50000x128.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The same for the aggregated-residual block. -/
theorem blk1_1 (c : Dev nD) (t : Fin cfg1.N) (p : Fin 5000) (k : Fin 128) (hb : 5000 * t.val + p.val < 50000) :
    (iblk1 V c 1 t : Vec Ideal S5000x128 .f32) (ix2 p k) = (V c main_v29 : S50000x128.Idx → EReal) (ix2 ⟨5000 * t.val + p.val, hb⟩ k) := by
  obtain ⟨-, -, e0, e1, -⟩ := idx1 t
  unfold iblk1
  rw [View.read_apply]
  refine congrArg (V c main_v29 : S50000x128.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The upper weight block is the whole upper half at every point … -/
theorem blk1_2 (c : Dev nD) (t : Fin cfg1.N) (j k : Fin 128) :
    (iblk1 V c 2 t : Vec Ideal S128x128 .f32) (ix2 j k) = (V c main_v30 : S128x128.Idx → EReal) (ix2 j k) := by
  obtain ⟨-, -, -, -, e0, e1, -⟩ := idx1 t
  unfold iblk1
  rw [View.read_apply]
  refine congrArg (V c main_v30 : S128x128.Idx → EReal) (funext fun a => Fin.ext ?_)
  match a with
  | ⟨0, _⟩ => show win1_2.index t (0 : Fin 2) * 128 + 1 * j.val = j.val; rw [e0]; omega
  | ⟨1, _⟩ => show win1_2.index t (1 : Fin 2) * 128 + 1 * k.val = k.val; rw [e1]; omega

/-- … and so are the lower half … -/
theorem blk1_3 (c : Dev nD) (t : Fin cfg1.N) (j k : Fin 128) :
    (iblk1 V c 3 t : Vec Ideal S128x128 .f32) (ix2 j k) = (V c main_v31 : S128x128.Idx → EReal) (ix2 j k) := by
  obtain ⟨-, -, -, -, -, -, e0, e1, -⟩ := idx1 t
  unfold iblk1
  rw [View.read_apply]
  refine congrArg (V c main_v31 : S128x128.Idx → EReal) (funext fun a => Fin.ext ?_)
  match a with
  | ⟨0, _⟩ => show win1_3.index t (0 : Fin 2) * 128 + 1 * j.val = j.val; rw [e0]; omega
  | ⟨1, _⟩ => show win1_3.index t (1 : Fin 2) * 128 + 1 * k.val = k.val; rw [e1]; omega

/-- … and the bias. -/
theorem blk1_4 (c : Dev nD) (t : Fin cfg1.N) (k : Fin 128) :
    (iblk1 V c 4 t : Vec Ideal S128 .f32) (ix1 k) = (V c main_arg10 : S128.Idx → EReal) (ix1 k) := by
  obtain ⟨-, -, -, -, -, -, -, -, e0, -⟩ := idx1 t
  unfold iblk1
  rw [View.read_apply]
  refine congrArg (V c main_arg10 : S128.Idx → EReal) (funext fun a => Fin.ext ?_)
  match a with
  | ⟨0, _⟩ => show win1_4.index t (0 : Fin 1) * 128 + 1 * k.val = k.val; rw [e0]; omega

/-- Entry `(p, q)` of the output block at point `t` sits at row `5000·t + p` of the output array. -/
theorem emb1_5 (t : Fin cfg1.N) (p : Fin 5000) (q : Fin 128) (hb : 5000 * t.val + p.val < 50000) :
    ((cfg1.win 5).blk t).view.emb (ix2 p q) = (ix2 ⟨5000 * t.val + p.val, hb⟩ q : S50000x128.Idx) := by
  obtain ⟨-, -, -, -, -, -, -, -, -, e0, e1⟩ := idx1 t
  refine funext fun a => Fin.ext ?_
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- What the region leaves in its output array, as one function of the arrays it finds. -/
abbrev upd1 (c : Dev nD) : S50000x128.Idx → EReal :=
  updArr (V c main_arg1 : S50000x128.Idx → EReal) (V c main_v29 : S50000x128.Idx → EReal)
    (fun j k => (V c main_v30 : S128x128.Idx → EReal) (ix2 j k)) (fun j k => (V c main_v31 : S128x128.Idx → EReal) (ix2 j k))
    (V c main_arg10 : S128.Idx → EReal)

/-- What point `t` writes back is block `t` of that function. -/
theorem flushed1_eq (c : Dev nD) (t : Fin cfg1.N) :
    (dat1 V c).flushed 5 t = ((cfg1.win 5).blk t).view.read (Elt Ideal) (upd1 V c) := by
  show (cfg1.win 5).cut (grid1.coords t) ((dat1 V c).after 5 t) = _
  rw [after1_5]
  unfold out1_5
  rw [View.canon_unit_zero hz2b]
  simp only [View.ld_unit_zero (S := S5000x128) hz2b, View.ld_unit_zero (S := S128x128) hz2b, View.ld_unit_zero (S := S128) hz1b]
  funext j
  obtain ⟨p, q, rfl⟩ : ∃ (p : Fin 5000) (q : Fin 128), j = ix2 p q := ⟨j 0, j 1, eq_ix2 j⟩
  have hN : cfg1.N = 10 := N_1
  have hb : 5000 * t.val + p.val < 50000 := by have := t.isLt; have := p.isLt; omega
  rw [View.read_apply, emb1_5 t p q hb]
  show k1_pay1 (iblk1 V c 0 t) (iblk1 V c 1 t) (iblk1 V c 2 t) (iblk1 V c 3 t) (iblk1 V c 4 t) (ix2 p q) = _
  refine (upd_pay_apply (iblk1 V c 0 t) (iblk1 V c 1 t) (iblk1 V c 2 t) (iblk1 V c 3 t) (iblk1 V c 4 t) p q).trans ?_
  simp only [blk1_0 V c t _ _ hb, blk1_1 V c t _ _ hb, blk1_2, blk1_3, blk1_4]
  rfl

/-- Every row of the output array is in some point's block. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_5 _, ?_⟩
  obtain ⟨-, -, -, -, -, -, -, -, -, e0, e1⟩ := idx1 ⟨(i 0).val / 5000, ht⟩
  show i ∈ ((View.whole main_v32).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- After the write-backs the output array holds the update of every node. -/
theorem final1 (c : Dev nD) : (dat1 V c).arrAt 5 cfg1.N = upd1 V c :=
  (dat1 V c).arrAt_eq_of_cover 5 (upd1 V c) (fun t _ => flushed1_eq V c t) cover1

end Cert.KernelIdeal.Hand

end
-- ==== Proof.RefRow.lean ====
/-
  The reference, read one entry at a time on the extended reals.

  The reference computes the residual of all 800000 edges at once with whole-array operations; at an entry `(e, q)`
  each of them reads row `e` of the two gathered arrays only: the two `dot_general`s are sums over the contracted
  index, the means are the host's sums of a row (from the zero initial value) divided by 128, and every broadcast
  reads its operand at the row or at the column. So the entry is `lnRow` of row `e` (Spec.lean). The update's entry
  `(n, q)` is the product of the concatenated row `[x_dst(n), aggr(n)]` with column `q` of the 256-row weights, plus
  the bias: the sum over 256 splits at 128 into the two halves, which is `updRow`.
-/
import proofs.«166582_j1099511628110_1_alg».proof.Proof.Gen.ReferenceIdeal.Read
import proofs.«166582_j1099511628110_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Read Cert.Prmp
open Idealize.ShloMosaic Idealize.ShloMosaic.ValueIdx

/-! ## Where each layout operation reads its operand -/

theorem i19 (u : Fin 1) (q : Fin 128) : idx_main_v19 (ix2 u q) = ix1 q := funext fun a => Fin.ext (by match a with | ⟨0, _⟩ => rfl)
theorem i24 (u : Fin 1) (q : Fin 128) : idx_main_v24 (ix2 u q) = ix1 q := funext fun a => Fin.ext (by match a with | ⟨0, _⟩ => rfl)
theorem i46 (u : Fin 1) (q : Fin 128) : idx_main_v46 (ix2 u q) = ix1 q := funext fun a => Fin.ext (by match a with | ⟨0, _⟩ => rfl)
theorem i49 (u : Fin 1) (q : Fin 128) : idx_main_v49 (ix2 u q) = ix1 q := funext fun a => Fin.ext (by match a with | ⟨0, _⟩ => rfl)
theorem i20 (e : Fin 800000) (q : Fin 128) : idx_main_v20 (ix2 e q) = ix2 (0 : Fin 1) q :=
  funext fun a => Fin.ext (by match a with | ⟨0, _⟩ => rfl | ⟨1, _⟩ => rfl)
theorem i25 (e : Fin 800000) (q : Fin 128) : idx_main_v25 (ix2 e q) = ix2 (0 : Fin 1) q :=
  funext fun a => Fin.ext (by match a with | ⟨0, _⟩ => rfl | ⟨1, _⟩ => rfl)
theorem i47 (e : Fin 800000) (q : Fin 128) : idx_main_v47 (ix2 e q) = ix2 (0 : Fin 1) q :=
  funext fun a => Fin.ext (by match a with | ⟨0, _⟩ => rfl | ⟨1, _⟩ => rfl)
theorem i50 (e : Fin 800000) (q : Fin 128) : idx_main_v50 (ix2 e q) = ix2 (0 : Fin 1) q :=
  funext fun a => Fin.ext (by match a with | ⟨0, _⟩ => rfl | ⟨1, _⟩ => rfl)
theorem l18 (e : Fin 800000) (q k : Fin 128) : lidx_main_v18 (ix2 e q) k = ix2 e k :=
  funext fun a => Fin.ext (by match a with | ⟨0, _⟩ => rfl | ⟨1, _⟩ => rfl)
theorem r18 (e : Fin 800000) (q k : Fin 128) : ridx_main_v18 (ix2 e q) k = ix2 k q :=
  funext fun a => Fin.ext (by match a with | ⟨0, _⟩ => rfl | ⟨1, _⟩ => rfl)
theorem l23 (e : Fin 800000) (q k : Fin 128) : lidx_main_v23 (ix2 e q) k = ix2 e k :=
  funext fun a => Fin.ext (by match a with | ⟨0, _⟩ => rfl | ⟨1, _⟩ => rfl)
theorem r23 (e : Fin 800000) (q k : Fin 128) : ridx_main_v23 (ix2 e q) k = ix2 k q :=
  funext fun a => Fin.ext (by match a with | ⟨0, _⟩ => rfl | ⟨1, _⟩ => rfl)
theorem i28 (e : Fin 800000) (k : Fin 128) : idx_main_v28 (ix1 e) k = ix2 e k :=
  funext fun a => Fin.ext (by match a with | ⟨0, _⟩ => rfl | ⟨1, _⟩ => rfl)
theorem i35 (e : Fin 800000) (k : Fin 128) : idx_main_v35 (ix1 e) k = ix2 e k :=
  funext fun a => Fin.ext (by match a with | ⟨0, _⟩ => rfl | ⟨1, _⟩ => rfl)
theorem i29 (e : Fin 800000) (u : Fin 1) : idx_main_v29 (ix2 e u) = ix1 e := funext fun a => Fin.ext (by match a with | ⟨0, _⟩ => rfl)
theorem i36 (e : Fin 800000) (u : Fin 1) : idx_main_v36 (ix2 e u) = ix1 e := funext fun a => Fin.ext (by match a with | ⟨0, _⟩ => rfl)
theorem i32 (e : Fin 800000) (q : Fin 128) : idx_main_v32 (ix2 e q) = ix2 e (0 : Fin 1) :=
  funext fun a => Fin.ext (by match a with | ⟨0, _⟩ => rfl | ⟨1, _⟩ => rfl)
theorem i39 (e : Fin 800000) (q : Fin 128) : idx_main_v39 (ix2 e q) = ix2 e (0 : Fin 1) :=
  funext fun a => Fin.ext (by match a with | ⟨0, _⟩ => rfl | ⟨1, _⟩ => rfl)
theorem i44 (e : Fin 800000) (q : Fin 128) : idx_main_v44 (ix2 e q) = ix2 e (0 : Fin 1) :=
  funext fun a => Fin.ext (by match a with | ⟨0, _⟩ => rfl | ⟨1, _⟩ => rfl)

/-! ## The residual at an entry -/

/-- The reference's residual array at `(e, q)` is `lnRow` of row `e` of the two gathered arrays. -/
theorem resid_apply (x0 x1 : (⟨S50000x128, .f32⟩ : BufTy).Contents (Elt Ideal)) (x2 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal)) (e : Fin 800000) (q : Fin 128) :
    val_main_v51 (F := Ideal) x0 x1 x2 x3 x4 x5 x6 x7 x8 (ix2 e q)
      = lnRow (fun k => val_main_v10 (F := Ideal) x0 x2 (ix2 e k)) (fun k => val_main_v17 (F := Ideal) x1 x2 (ix2 e k))
          (fun j k => x3 (ix2 j k)) (fun k => x4 (ix1 k)) (fun j k => x5 (ix2 j k)) (fun k => x6 (ix1 k))
          (fun k => x7 (ix1 k)) (fun k => x8 (ix1 k)) q := by
  simp only [val_main_v51_apply, val_main_v48_apply, val_main_v50_apply, val_main_v49_apply, val_main_v47_apply, val_main_v46_apply,
    val_main_v45_apply, val_main_v44_apply, val_main_v43_apply, val_main_v42_apply, val_main_v41_apply, val_main_cst_6_apply,
    val_main_v40_apply, val_main_v39_apply, val_main_v38_apply, val_main_v37_apply, val_main_cst_5_apply, val_main_v36_apply,
    val_main_v35_apply, val_main_cst_4_apply, val_main_v34_apply, val_main_v33_apply, val_main_v32_apply, val_main_v31_apply,
    val_main_v30_apply, val_main_cst_3_apply, val_main_v29_apply, val_main_v28_apply, val_main_cst_apply, val_main_v27_apply,
    val_main_v26_apply, val_main_v25_apply, val_main_v24_apply, val_main_v23_apply, val_main_v22_apply, val_main_call0_v0_apply,
    val_main_call0_cst_apply, val_main_v21_apply, val_main_v20_apply, val_main_v19_apply, val_main_v18_apply,
    i19, i24, i46, i49, i20, i25, i47, i50, l18, r18, l23, r23, i28, i35, i29, i36, i32, i39, i44,
    Ideal.addf_def, Ideal.subf_def, Ideal.mulf_def, Ideal.maximumf_def, Ideal.hostDivf_def, Ideal.hostUnary_rsqrt_def,
    Ideal.ofBits_def, Ideal.ofBits_zero_f32, zero_add]
  rfl

/-! ## The update at an entry -/

theorem r64 (n : Fin 50000) (q : Fin 128) (k : Fin 256) : ridx_main_v64 (ix2 n q) k = ix2 k q :=
  funext fun a => Fin.ext (by match a with | ⟨0, _⟩ => rfl | ⟨1, _⟩ => rfl)
theorem i65 (u : Fin 1) (q : Fin 128) : idx_main_v65 (ix2 u q) = ix1 q := funext fun a => Fin.ext (by match a with | ⟨0, _⟩ => rfl)
theorem i66 (n : Fin 50000) (q : Fin 128) : idx_main_v66 (ix2 n q) = ix2 (0 : Fin 1) q :=
  funext fun a => Fin.ext (by match a with | ⟨0, _⟩ => rfl | ⟨1, _⟩ => rfl)

/-- The concatenated row read in its first half is the first array's row … -/
theorem cat_left (X1 X2 : S50000x128.Idx → EReal) (h : Shape.Concatenates [S50000x128, S50000x128] S50000x256 1)
    (n : Fin 50000) (q : Fin 128) (j : Fin 128) (hj : j.val < 256) :
    concatenate S50000x256 1 [⟨S50000x128, X1⟩, ⟨S50000x128, X2⟩] h (lidx_main_v64 (ix2 n q) ⟨j.val, hj⟩) = X1 (ix2 n j) :=
  concatenate_pair_apply_left 1 X1 X2 h _ rfl (ix2 n j) (fun b => by match b with | ⟨0, _⟩ => rfl | ⟨1, _⟩ => rfl)

/-- … and in its second half the second array's row. -/
theorem cat_right (X1 X2 : S50000x128.Idx → EReal) (h : Shape.Concatenates [S50000x128, S50000x128] S50000x256 1)
    (n : Fin 50000) (q : Fin 128) (j : Fin 128) (hj : 128 + j.val < 256) :
    concatenate S50000x256 1 [⟨S50000x128, X1⟩, ⟨S50000x128, X2⟩] h (lidx_main_v64 (ix2 n q) ⟨128 + j.val, hj⟩) = X2 (ix2 n j) :=
  concatenate_pair_apply_right 1 X1 X2 h _ rfl rfl (ix2 n j)
    (fun b hb => by match b with | ⟨0, _⟩ => rfl | ⟨1, _⟩ => exact absurd rfl hb)
    (by show j.val + 128 = 128 + j.val; omega)

/-- The reference's result at `(n, q)` is `updRow` of row `n` of the destination features and of the aggregated
    residual, against the two halves of the weights. -/
theorem upd_apply (x0 x1 : (⟨S50000x128, .f32⟩ : BufTy).Contents (Elt Ideal)) (x2 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal)) (x9 : (⟨S256x128, .f32⟩ : BufTy).Contents (Elt Ideal)) (x10 : (⟨S128, .f32⟩ : BufTy).Contents (Elt Ideal)) (n : Fin 50000) (q : Fin 128) :
    val_main_v67 (F := Ideal) x0 x1 x2 x3 x4 x5 x6 x7 x8 x9 x10 (ix2 n q)
      = updRow (fun k => x1 (ix2 n k)) (fun k => val_main_v62 (F := Ideal) x0 x1 x2 x3 x4 x5 x6 x7 x8 (ix2 n k))
          (topHalf x9) (botHalf x9) (fun k => x10 (ix1 k)) q := by
  rw [val_main_v67_apply, val_main_v64_apply, val_main_v66_apply, val_main_v65_apply, sum_256_split]
  unfold val_main_v63
  generalize val_main_v62 (F := Ideal) x0 x1 x2 x3 x4 x5 x6 x7 x8 = ag
  simp only [cat_left, cat_right, r64, i65, i66, Ideal.addf_def]
  rfl

end Cert.ReferenceIdeal.Hand

end
-- ==== Proof.Bridge.lean ====
/-
  The kernel program's run read against the reference's stages.

  Both programs begin with the same host operations (the two rows of the edge list, negative indices wrapped, the two
  row gathers) and share the scatter-add of the residuals per destination node, the clipped edge counts and the
  division. They differ in the middle — the kernel's first region against the reference's whole-array perceptron and
  normalisation — and at the end — the second region against concatenate, `dot_general` and add. So the kernel's
  buffers are followed through the run's segment boundaries and each is identified with the reference's stage of the
  same name: the host stretches by running the operations (the two programs spell them with their own copies of
  the same shapes and dimension records), the regions by the two output-array theorems and the entrywise readings of
  the reference.
-/
import proofs.«166582_j1099511628110_1_alg».proof.Defs
import proofs.«166582_j1099511628110_1_alg».proof.Proof.KernelRun
import proofs.«166582_j1099511628110_1_alg».proof.Proof.KernelArray0
import proofs.«166582_j1099511628110_1_alg».proof.Proof.KernelArray1
import proofs.«166582_j1099511628110_1_alg».proof.Proof.RefRow
import Idealize.ShloMosaic.Lib.StableHlo.Run
import Idealize.ShloMosaic.Lib.ValueLayout

set_option maxRecDepth 16384

noncomputable section

open scoped BigOperators

namespace Cert.Bridge

open Idealize.ShloMosaic Idealize.ShloMosaic.TcCoe Idealize.SL.Sem Idealize.ShloMosaic.StableHlo Idealize.ShloMosaic.ValueIdx
open Cert.KernelIdeal Cert.KernelIdeal.Gen Cert.Prmp
open Cert.ReferenceIdeal.Read (val_main_v0 val_main_v1 val_main_v2 val_main_v3 val_main_c val_main_v4 val_main_v5 val_main_c_0 val_main_v6
  val_main_v7 val_main_v8 val_main_v9 val_main_v10 val_main_c_1 val_main_v11 val_main_v12 val_main_c_2 val_main_v13 val_main_v14
  val_main_v15 val_main_v16 val_main_v17 val_main_v51 val_main_cst_7 val_main_v52 val_main_v53 val_main_v54 val_main_cst_8 val_main_v55
  val_main_cst_9 val_main_v56 val_main_v57 val_main_v58 val_main_cst_10 val_main_call1_v0 val_main_call1_v1 val_main_v59 val_main_v60
  val_main_v61 val_main_v62 val_main_v67)

variable (m : (ℓ : Loc nD τ sig) → Buf (Elt Ideal) ℓ) (ρ : Dev nD → PrngReg)

/-! ## The host operations before the first region -/

/-- The gathered source features are the reference's. -/
theorem W1_v10 (c : Dev nD) :
    W1 m ρ c (Proc.devRef .tc main_v10) = val_main_v10 (F := Ideal) (m ((c.tc : Thread nD τ).loc main_arg0)) (m ((c.tc : Thread nD τ).loc main_arg2)) := by
  show StableHlo.after hostOps0 (W0 m ρ c) (Proc.devRef .tc main_v10) = _
  after_results
  unfold val_main_v10 val_main_v9 val_main_v8 val_main_v7 val_main_v6 val_main_c_0 val_main_v5 val_main_v4 val_main_c val_main_v1 val_main_v0
  rfl

/-- The gathered destination features are the reference's. -/
theorem W1_v17 (c : Dev nD) :
    W1 m ρ c (Proc.devRef .tc main_v17) = val_main_v17 (F := Ideal) (m ((c.tc : Thread nD τ).loc main_arg1)) (m ((c.tc : Thread nD τ).loc main_arg2)) := by
  show StableHlo.after hostOps0 (W0 m ρ c) (Proc.devRef .tc main_v17) = _
  after_results
  unfold val_main_v17 val_main_v16 val_main_v15 val_main_v14 val_main_v13 val_main_c_2 val_main_v12 val_main_v11 val_main_c_1 val_main_v3 val_main_v2
  rfl

/-- The destination index of every edge is the reference's. -/
theorem W1_v3 (c : Dev nD) :
    W1 m ρ c (Proc.devRef .tc main_v3) = val_main_v3 (F := Ideal) (m ((c.tc : Thread nD τ).loc main_arg2)) := by
  show StableHlo.after hostOps0 (W0 m ρ c) (Proc.devRef .tc main_v3) = _
  after_results
  unfold val_main_v3 val_main_v2
  rfl

/-- No host operation before the first region writes an argument. -/
theorem W1_arg (c : Dev nD) :
    W1 m ρ c (Proc.devRef .tc main_arg1) = (m ((c.tc : Thread nD τ).loc main_arg1)) ∧ W1 m ρ c (Proc.devRef .tc main_arg3) = (m ((c.tc : Thread nD τ).loc main_arg3))
    ∧ W1 m ρ c (Proc.devRef .tc main_arg4) = (m ((c.tc : Thread nD τ).loc main_arg4)) ∧ W1 m ρ c (Proc.devRef .tc main_arg5) = (m ((c.tc : Thread nD τ).loc main_arg5))
    ∧ W1 m ρ c (Proc.devRef .tc main_arg6) = (m ((c.tc : Thread nD τ).loc main_arg6)) ∧ W1 m ρ c (Proc.devRef .tc main_arg7) = (m ((c.tc : Thread nD τ).loc main_arg7))
    ∧ W1 m ρ c (Proc.devRef .tc main_arg8) = (m ((c.tc : Thread nD τ).loc main_arg8)) ∧ W1 m ρ c (Proc.devRef .tc main_arg9) = (m ((c.tc : Thread nD τ).loc main_arg9))
    ∧ W1 m ρ c (Proc.devRef .tc main_arg10) = (m ((c.tc : Thread nD τ).loc main_arg10)) := by
  refine ⟨?_, ?_, ?_, ?_, ?_, ?_, ?_, ?_, ?_⟩ <;>
  · show StableHlo.after hostOps0 (W0 m ρ c) _ = _
    after_results

/-! ## The first region and the buffers it leaves alone -/

/-- The first region's output array is the reference's residual stage: both are `lnRow` of each row of the gathered
    arrays. -/
theorem W2_v18 (c : Dev nD) :
    W2 m ρ c (Proc.devRef .tc main_v18) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨-, h3, h4, h5, h6, h7, h8, -⟩ := W1_arg m ρ c
  refine (W2_arr m ρ c 8).trans ?_
  refine (Cert.KernelIdeal.Hand.final0 (V1 m ρ) c).trans ?_
  funext i
  obtain ⟨e, q, rfl⟩ : ∃ (e : Fin 800000) (q : Fin 128), i = ix2 e q := ⟨i 0, i 1, eq_ix2 i⟩
  refine Eq.trans ?_ (Cert.ReferenceIdeal.Hand.resid_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) e q).symm
  show residArr (W1 m ρ c (Proc.devRef .tc main_v10)) (W1 m ρ c (Proc.devRef .tc main_v17)) (W1 m ρ c (Proc.devRef .tc main_arg3))
    (W1 m ρ c (Proc.devRef .tc main_arg4)) (W1 m ρ c (Proc.devRef .tc main_arg5)) (W1 m ρ c (Proc.devRef .tc main_arg6))
    (W1 m ρ c (Proc.devRef .tc main_arg7)) (W1 m ρ c (Proc.devRef .tc main_arg8)) (ix2 e q) = _
  rw [W1_v10 m ρ c, W1_v17 m ρ c, h3, h4, h5, h6, h7, h8]
  rfl

/-- The first region does not write the destination indices … -/
theorem W2_v3 (c : Dev nD) : W2 m ρ c (Proc.devRef .tc main_v3) = val_main_v3 (F := Ideal) (m ((c.tc : Thread nD τ).loc main_arg2)) :=
  (W2_of_ne m ρ c main_v3 (by decide)).trans (W1_v3 m ρ c)

/-- … nor the arguments the second region reads. -/
theorem W2_arg (c : Dev nD) :
    W2 m ρ c (Proc.devRef .tc main_arg1) = (m ((c.tc : Thread nD τ).loc main_arg1)) ∧ W2 m ρ c (Proc.devRef .tc main_arg9) = (m ((c.tc : Thread nD τ).loc main_arg9))
    ∧ W2 m ρ c (Proc.devRef .tc main_arg10) = (m ((c.tc : Thread nD τ).loc main_arg10)) := by
  obtain ⟨h1, -, -, -, -, -, -, h9, h10⟩ := W1_arg m ρ c
  exact ⟨(W2_of_ne m ρ c main_arg1 (by decide)).trans h1, (W2_of_ne m ρ c main_arg9 (by decide)).trans h9,
    (W2_of_ne m ρ c main_arg10 (by decide)).trans h10⟩

/-! ## The host operations between the regions, one stretch at a time over any contents -/

section Stages
variable (X : Valuation τ sig (Elt Ideal))

/-- The division of the aggregated residual by the spread counts. -/
theorem stretch3_v29 :
    @Eq (FVec Ideal S50000x128 .f32) (StableHlo.after hostOps1_2 X (Proc.devRef .tc main_v29))
      (Host.divf (X (Proc.devRef .tc main_v21) : FVec Ideal S50000x128 .f32)
          (broadcastInDim S50000x128 ![0, 1] Gen.bcast_S50000x1_S50000x128_0_1
            (broadcastInDim S50000x1 ![0] Gen.bcast_S50000_S50000x1_0 (X (Proc.devRef .tc main_v26) : FVec Ideal S50000 .f32)))) := by
  after_results

/-- The clip of the counts from below at one. -/
theorem stretch2_v26 :
    @Eq (FVec Ideal S50000 .f32) (StableHlo.after hostOps1_1 X (Proc.devRef .tc main_v26))
      (maximumf (broadcastInDim S50000 ![] Gen.bcast_S_S50000 (X (Proc.devRef .tc main_cst_5) : FVec Ideal S_ .f32))
          (X (Proc.devRef .tc main_v25) : FVec Ideal S50000 .f32)) := by
  after_results
  rfl

/-- The clip leaves the scattered sums alone. -/
theorem stretch2_v21 : StableHlo.after hostOps1_1 X (Proc.devRef .tc main_v21) = X (Proc.devRef .tc main_v21) := by
  after_results

/-- The residuals summed per destination node. -/
theorem stretch1_v21 :
    @Eq (FVec Ideal S50000x128 .f32) (StableHlo.after hostOps1 X (Proc.devRef .tc main_v21))
      (Host.scatterAdd scatter_S50000x128_S800000x1_S800000x128_1_0_0_1
          (broadcastInDim S50000x128 ![] Gen.bcast_S_S50000x128 (constant (F := Ideal) S_ .f32 0x00000000#32))
          (broadcastInDim S800000x1 ![0] Gen.bcast_S800000_S800000x1_0 (X (Proc.devRef .tc main_v3) : IVec S800000 32))
          (X (Proc.devRef .tc main_v18) : FVec Ideal S800000x128 .f32)) := by
  after_results

/-- The number of edges per destination node. -/
theorem stretch1_v25 :
    @Eq (FVec Ideal S50000 .f32) (StableHlo.after hostOps1 X (Proc.devRef .tc main_v25))
      (Host.scatterAdd scatter_S50000_S800000x1_S800000_n_0_0_1
          (broadcastInDim S50000 ![] Gen.bcast_S_S50000 (constant (F := Ideal) S_ .f32 0x00000000#32))
          (broadcastInDim S800000x1 ![0] Gen.bcast_S800000_S800000x1_0 (X (Proc.devRef .tc main_v3) : IVec S800000 32))
          (broadcastInDim S800000 ![] Gen.bcast_S_S800000 (constant (F := Ideal) S_ .f32 0x3F800000#32))) := by
  after_results

/-- The constant one. -/
theorem stretch1_cst5 :
    @Eq (FVec Ideal S_ .f32) (StableHlo.after hostOps1 X (Proc.devRef .tc main_cst_5)) (constant (F := Ideal) S_ .f32 0x3F800000#32) := by
  after_results

end Stages

/-! ## The host operations between the regions -/

/-- The aggregated residual — the scatter-add per destination node divided by the clipped edge count — is the
    reference's stage: the same operations on the same residual and the same indices. -/
theorem W5_v29 (c : Dev nD) :
    W5 m ρ c (Proc.devRef .tc main_v29) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps1_2 (W4 m ρ c) (Proc.devRef .tc main_v29) = _
  rw [stretch3_v29 (W4 m ρ c)]
  dsimp only [W4]
  rw [stretch2_v26 (W3 m ρ c), stretch2_v21 (W3 m ρ c)]
  dsimp only [W3]
  rw [stretch1_v21 (W2 m ρ c), stretch1_v25 (W2 m ρ c), stretch1_cst5 (W2 m ρ c), W2_v18 m ρ c, W2_v3 m ρ c]
  unfold val_main_v62 val_main_v61 val_main_v60 val_main_v59 val_main_call1_v1 val_main_call1_v0 val_main_cst_10 val_main_v58 val_main_v57
    val_main_v56 val_main_cst_9 val_main_v55 val_main_cst_8 val_main_v54 val_main_v53 val_main_v52 val_main_cst_7
  generalize val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = res
  generalize val_main_v3 (F := Ideal) (m ((c.tc : Thread nD τ).loc main_arg2)) = dst
  rfl

/-- The upper half of the update weights … -/
theorem W5_v30 (c : Dev nD) :
    W5 m ρ c (Proc.devRef .tc main_v30) = extractStridedSlice S128x128 ![0, 0] (m ((c.tc : Thread nD τ).loc main_arg9)) Gen.slices_S256x128_S128x128_0_0 := by
  obtain ⟨-, h9, -⟩ := W2_arg m ρ c
  show StableHlo.after hostOps1_2 (StableHlo.after hostOps1_1 (StableHlo.after hostOps1 (W2 m ρ c))) (Proc.devRef .tc main_v30) = _
  after_results
  rw [h9]

/-- … and the lower half. -/
theorem W5_v31 (c : Dev nD) :
    W5 m ρ c (Proc.devRef .tc main_v31) = extractStridedSlice S128x128 ![128, 0] (m ((c.tc : Thread nD τ).loc main_arg9)) Gen.slices_S256x128_S128x128_128_0 := by
  obtain ⟨-, h9, -⟩ := W2_arg m ρ c
  show StableHlo.after hostOps1_2 (StableHlo.after hostOps1_1 (StableHlo.after hostOps1 (W2 m ρ c))) (Proc.devRef .tc main_v31) = _
  after_results
  rw [h9]

/-- No host operation between the regions writes the destination features or the update bias. -/
theorem W5_arg (c : Dev nD) :
    W5 m ρ c (Proc.devRef .tc main_arg1) = (m ((c.tc : Thread nD τ).loc main_arg1)) ∧ W5 m ρ c (Proc.devRef .tc main_arg10) = (m ((c.tc : Thread nD τ).loc main_arg10)) := by
  obtain ⟨h1, -, h10⟩ := W2_arg m ρ c
  constructor
  · show StableHlo.after hostOps1_2 (StableHlo.after hostOps1_1 (StableHlo.after hostOps1 (W2 m ρ c))) (Proc.devRef .tc main_arg1) = _
    after_results
    exact h1
  · show StableHlo.after hostOps1_2 (StableHlo.after hostOps1_1 (StableHlo.after hostOps1 (W2 m ρ c))) (Proc.devRef .tc main_arg10) = _
    after_results
    exact h10

/-! ## The result -/

/-- The slice of rows 0 … 127 of the weights, entry by entry. -/
theorem top_eq (W : S256x128.Idx → EReal) (h : S256x128.Slices ![0, 0] S128x128) :
    (fun (j k : Fin 128) => extractStridedSlice S128x128 ![0, 0] W h (ix2 j k)) = topHalf W :=
  funext fun j => funext fun k => extractStridedSlice_apply _ W h (ix2 j k) (ix2 (⟨j.val, by omega⟩ : Fin 256) k) (fun a => by
    match a with
    | ⟨0, _⟩ => show j.val = 0 + j.val; omega
    | ⟨1, _⟩ => show k.val = 0 + k.val; omega)

/-- The slice of rows 128 … 255 of the weights, entry by entry. -/
theorem bot_eq (W : S256x128.Idx → EReal) (h : S256x128.Slices ![128, 0] S128x128) :
    (fun (j k : Fin 128) => extractStridedSlice S128x128 ![128, 0] W h (ix2 j k)) = botHalf W :=
  funext fun j => funext fun k => extractStridedSlice_apply _ W h (ix2 j k) (ix2 (⟨128 + j.val, by omega⟩ : Fin 256) k) (fun a => by
    match a with
    | ⟨0, _⟩ => show 128 + j.val = 128 + j.val; rfl
    | ⟨1, _⟩ => show k.val = 0 + k.val; omega)

/-- The kernel program's result buffer after the run is the reference's last stage of the same arguments. -/
theorem out_value (c : Dev nD) :
    W6 m ρ c (Proc.devRef .tc main_v32) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨h1, h10⟩ := W5_arg m ρ c
  refine (Cert.KernelIdeal.Hand.out_eq m ρ c).trans ?_
  refine (Cert.KernelIdeal.Hand.final1 (V5 m ρ) c).trans ?_
  funext i
  obtain ⟨n, q, rfl⟩ : ∃ (n : Fin 50000) (q : Fin 128), i = ix2 n q := ⟨i 0, i 1, eq_ix2 i⟩
  refine Eq.trans ?_ (Cert.ReferenceIdeal.Hand.upd_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) n q).symm
  show updArr (W5 m ρ c (Proc.devRef .tc main_arg1)) (W5 m ρ c (Proc.devRef .tc main_v29))
    (fun j k => (W5 m ρ c (Proc.devRef .tc main_v30) : S128x128.Idx → EReal) (ix2 j k))
    (fun j k => (W5 m ρ c (Proc.devRef .tc main_v31) : S128x128.Idx → EReal) (ix2 j k))
    (W5 m ρ c (Proc.devRef .tc main_arg10)) (ix2 n q) = _
  rw [h1, h10, W5_v29 m ρ c, W5_v30 m ρ c, W5_v31 m ρ c, top_eq, bot_eq]
  rfl

/-- Every weakly fair execution of the kernel program terminates, nothing faulting, with the result at the
    reference's last stage of the launch arguments and the arguments unchanged. -/
theorem kernel_run : θ_run defs (onTc (τ := τ) (main (F := Ideal))) ⟨m, fun _ => 0, ρ⟩ (fun r => ∀ c : Dev nD,
      r.2.mem ((c.tc : Thread nD τ).loc main_v32) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_value m ρ c), (h c).2⟩) (Cert.KernelIdeal.Hand.run_out m ρ)

end Cert.Bridge

end
-- ==== Proof.lean ====
/-
  Message passing with a predictive residual, kernel against reference, on the extended reals.

  For every edge `(s, d)` both programs gather the source row `x_src[s]` and the destination row `x_dst[d]`, predict the
  source row from the destination row with a two-layer perceptron, normalise the difference over its 128 entries and
  scale it (`lnRow`); they sum the residuals of the edges arriving at each destination node, divide by the clipped
  number of such edges, and update each node from its own features and that mean residual with one linear layer over
  the concatenation of the two (`updRow`). The kernel program computes the per-edge part in one region over blocks
  of 3200 edges and the per-node update in a second region over blocks of 5000 nodes, with the weight matrix split at
  row 128 instead of the rows concatenated; the gathers, the scatter-add and the division are the same host
  operations in both programs.

  At the ideal instance a change of float format is the identity, the matrix unit's product into a zero accumulator
  and the host's `dot_general` are the same sum over the contracted index, and a lane sum and the host's sum from a zero
  initial value are the same sum over a row. So each region's output array is the reference's stage of the same name,
  entry by entry: the first by unfolding both sides to `lnRow` of a row, the second because a sum over 256 indices is
  the sum over the first 128 plus the sum over the last 128 — addition of extended reals is commutative and
  associative, so no finiteness of the inputs is used anywhere. The frames of the two kernel programs are the
  generated ones; the reference's is its generated run with the result dropped; the ideal pass rewrote nothing.
-/
import proofs.«166582_j1099511628110_1_alg».proof.Defs
import proofs.«166582_j1099511628110_1_alg».proof.Proof.Gen.Kernel
import proofs.«166582_j1099511628110_1_alg».proof.Proof.Gen.Kernel.Skeleton
import proofs.«166582_j1099511628110_1_alg».proof.Proof.Gen.Kernel.Launch
import proofs.«166582_j1099511628110_1_alg».proof.Proof.Gen.Kernel.Points
import proofs.«166582_j1099511628110_1_alg».proof.Proof.Gen.Kernel.Frame
import proofs.«166582_j1099511628110_1_alg».proof.Proof.Gen.KernelIdeal
import proofs.«166582_j1099511628110_1_alg».proof.Proof.Gen.KernelIdeal.Skeleton
import proofs.«166582_j1099511628110_1_alg».proof.Proof.Gen.KernelIdeal.Launch
import proofs.«166582_j1099511628110_1_alg».proof.Proof.Gen.KernelIdeal.Points
import proofs.«166582_j1099511628110_1_alg».proof.Proof.Gen.KernelIdeal.Frame
import proofs.«166582_j1099511628110_1_alg».proof.Proof.Gen.ReferenceIdeal
import proofs.«166582_j1099511628110_1_alg».proof.Proof.Gen.Pre_finite_inputs
import proofs.«166582_j1099511628110_1_alg».proof.Proof.Gen.ReferenceIdeal.Run
import proofs.«166582_j1099511628110_1_alg».proof.Proof.Gen.ReferenceIdeal.Read
import proofs.«166582_j1099511628110_1_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read at the ideal instance: nothing to preserve. -/
theorem preserves : Cert.preserves_Kernel_KernelIdeal := trivial

/-- From memories agreeing on the arguments both idealized programs end with the same result: the reference's
    last stage of the arguments (the kernel program's run reaches it by `Cert.Bridge.kernel_run`, the reference's by
    its own run). -/
theorem algebraic : Cert.algebraic_KernelIdeal_ReferenceIdeal := by
  intro m ρ m' ρ' _ hagree
  refine ⟨fun c => Cert.ReferenceIdeal.Read.val_main_v67 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v67_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
